-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x768 : Shape := ⟨3, ![32, 4096, 768]⟩
abbrev S64x768 : Shape := ⟨2, ![64, 768]⟩
abbrev S_ : Shape := ⟨0, ![]⟩

class Facts : Prop where
  bcast_S_S32x4096x768 : S_.BroadcastsInDim S32x4096x768 (![] : Fin 0 → Fin S32x4096x768.rank)
  reducesTo_S32x4096x768_S_d0_1_2 : S32x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32x4096x768 .f32) (main_arg1 : FVec F S64x768 .f32) : IVec S_ 1 :=
  let main_v0 : FVec F S32x4096x768 .f32 := Host.absf main_arg0
  let main_cst : FVec F S_ .f32 := constant S_ .f32 0x7F800000#32
  let main_v1 : FVec F S32x4096x768 .f32 := broadcastInDim S32x4096x768 ![] bcast_S_S32x4096x768 main_cst
  let main_v2 : IVec S32x4096x768 1 := cmpf .olt main_v0 main_v1
  let main_c : IVec S_ 1 := constantI S_ 1 1#1
  let main_v3 : IVec S_ 1 := (fun x v => Host.reduce IntOp.andi x v reducesTo_S32x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S32x4096x768 : Shape := ⟨3, ![32, 4096, 768]⟩
abbrev S64x768 : Shape := ⟨2, ![64, 768]⟩
abbrev S32x64x768 : Shape := ⟨3, ![32, 64, 768]⟩
abbrev S1x4096x768 : Shape := ⟨3, ![1, 4096, 768]⟩
abbrev S1x64x768 : Shape := ⟨3, ![1, 64, 768]⟩
abbrev S4096x768 : Shape := ⟨2, ![4096, 768]⟩
abbrev S64x4096 : Shape := ⟨2, ![64, 4096]⟩
abbrev S64 : Shape := ⟨1, ![64]⟩
abbrev S64x1 : Shape := ⟨2, ![64, 1]⟩

abbrev nBuf : Space → Nat
  | .hbm => 3
  | .vmem => 5
  | .smem => 0
  | _ => 0

abbrev bufTy : (tb : Table) → Fin (tcTables nBuf tb) → BufTy
  | .hbm, ⟨0, _⟩ => ⟨S32x4096x768, .f32⟩
  | .hbm, ⟨1, _⟩ => ⟨S64x768, .f32⟩
  | .hbm, ⟨2, _⟩ => ⟨S32x64x768, .f32⟩
  | .local _ .vmem, ⟨0, _⟩ => ⟨S64x768, .f32⟩
  | .local _ .vmem, ⟨1, _⟩ => ⟨S1x4096x768, .f32⟩
  | .local _ .vmem, ⟨2, _⟩ => ⟨S1x4096x768, .f32⟩
  | .local _ .vmem, ⟨3, _⟩ => ⟨S1x64x768, .f32⟩
  | .local _ .vmem, ⟨4, _⟩ => ⟨S1x64x768, .f32⟩
  | _, _ => ⟨S32x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x768_S64x768_0_0 : ∀ a, (![0, 0] : Fin 2 → Nat) a + S64x768.size a ≤ S64x768.size a
  h_S64x768 : 0 < S64x768.numel
  bitsLt_bf16_f32 : FTy.bits .bf16 < FTy.bits .f32
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  reduces_S64x4096_S64 : S64x4096.Reduces [1] S64
  shapeCasts_S64_S64x1 : S64.ShapeCasts S64x1
  broadcasts_S64x1_S64x4096 : S64x1.Broadcasts S64x4096
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  shapeCasts_S64x768_S1x64x768 : S64x768.ShapeCasts S1x64x768
  dot_S64x768_S4096x768_S64x4096_1_1_0_0_n_n_wf : DotDims.WF S64x768 S4096x768 S64x4096 [1] [1] [0] [0] [] []
  dot_S64x4096_S4096x768_S64x768_1_0_0_1_n_n_wf : DotDims.WF S64x4096 S4096x768 S64x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S64x768.size a
  hwx0_0 : ∀ i : grid0.Coords, EltTy.bits .f32 = 32 ∨ (Rect.block (s := S64x768) S64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x768.size a ≤ S32x4096x768.size a
  hwx0_1 : ∀ i : grid0.Coords, EltTy.bits .f32 = 32 ∨ (Rect.block (s := S32x4096x768) S1x4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x768.size a ≤ S32x64x768.size a
  hwx0_2 : ∀ i : grid0.Coords, EltTy.bits .f32 = 32 ∨ (Rect.block (s := S32x64x768) S1x64x768.size (cc0_transform_2 i) (hinb0_2 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf
def dot_S64x4096_S4096x768_S64x768_1_0_0_1_n_n : DotDims S64x4096 S4096x768 S64x768 where
  lhsContracting := [1]
  rhsContracting := [0]
  lhsNonContracting := [0]
  rhsNonContracting := [1]
  lhsBatch := []
  rhsBatch := []
  wf := dot_S64x4096_S4096x768_S64x768_1_0_0_1_n_n_wf

abbrev win0_0 : Pipeline.Window sig grid0 :=
  Pipeline.Window.ofSpec (Memref.whole main_arg1) S64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x768 : Shape := ⟨3, ![32, 4096, 768]⟩
abbrev S64x768 : Shape := ⟨2, ![64, 768]⟩
abbrev S32x4096x64 : Shape := ⟨3, ![32, 4096, 64]⟩
abbrev S_ : Shape := ⟨0, ![]⟩
abbrev S32x64 : Shape := ⟨2, ![32, 64]⟩
abbrev S32x1x64 : Shape := ⟨3, ![32, 1, 64]⟩
abbrev S32x64x768 : Shape := ⟨3, ![32, 64, 768]⟩

abbrev nBuf : Space → Nat
  | .hbm => 18
  | .vmem => 0
  | .smem => 0
  | _ => 0

abbrev bufTy : (tb : Table) → Fin (tcTables nBuf tb) → BufTy
  | .hbm, ⟨0, _⟩ => ⟨S32x4096x768, .f32⟩
  | .hbm, ⟨1, _⟩ => ⟨S64x768, .f32⟩
  | .hbm, ⟨2, _⟩ => ⟨S32x4096x64, .f32⟩
  | .hbm, ⟨3, _⟩ => ⟨S_, .f32⟩
  | .hbm, ⟨4, _⟩ => ⟨S32x64, .f32⟩
  | .hbm, ⟨5, _⟩ => ⟨S_, .f32⟩
  | .hbm, ⟨6, _⟩ => ⟨S32x64, .f32⟩
  | .hbm, ⟨7, _⟩ => ⟨S32x64, .f32⟩
  | .hbm, ⟨8, _⟩ => ⟨S32x1x64, .f32⟩
  | .hbm, ⟨9, _⟩ => ⟨S32x4096x64, .f32⟩
  | .hbm, ⟨10, _⟩ => ⟨S32x4096x64, .f32⟩
  | .hbm, ⟨11, _⟩ => ⟨S32x4096x64, .f32⟩
  | .hbm, ⟨12, _⟩ => ⟨S_, .f32⟩
  | .hbm, ⟨13, _⟩ => ⟨S32x64, .f32⟩
  | .hbm, ⟨14, _⟩ => ⟨S32x1x64, .f32⟩
  | .hbm, ⟨15, _⟩ => ⟨S32x4096x64, .f32⟩
  | .hbm, ⟨16, _⟩ => ⟨S32x4096x64, .f32⟩
  | .hbm, ⟨17, _⟩ => ⟨S32x64x768, .f32⟩
  | _, _ => ⟨S32x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S32x4096x64_S32x64_d1 : S32x4096x64.ReducesTo [1] S32x64
  h_S_ : 0 < S_.numel
  bcast_S_S32x64 : S_.BroadcastsInDim S32x64 (![] : Fin 0 → Fin S32x64.rank)
  bcast_S32x64_S32x1x64_0_2 : S32x64.BroadcastsInDim S32x1x64 (![0, 2] : Fin 2 → Fin S32x1x64.rank)
  bcast_S32x1x64_S32x4096x64_0_1_2 : S32x1x64.BroadcastsInDim S32x4096x64 (![0, 1, 2] : Fin 3 → Fin S32x4096x64.rank)
  dot_S32x4096x768_S64x768_S32x4096x64_2_1_01_0_n_n_wf : DotDims.WF S32x4096x768 S64x768 S32x4096x64 [2] [1] [0, 1] [0] [] []
  dot_S32x4096x64_S32x4096x768_S32x64x768_1_1_2_2_0_0_wf : DotDims.WF S32x4096x64 S32x4096x768 S32x64x768 [1] [1] [2] [2] [0] [0]

variable [Facts₀]

def dot_S32x4096x768_S64x768_S32x4096x64_2_1_01_0_n_n : DotDims S32x4096x768 S64x768 S32x4096x64 where
  lhsContracting := [2]
  rhsContracting := [1]
  lhsNonContracting := [0, 1]
  rhsNonContracting := [0]
  lhsBatch := []
  rhsBatch := []
  wf := dot_S32x4096x768_S64x768_S32x4096x64_2_1_01_0_n_n_wf
def dot_S32x4096x64_S32x4096x768_S32x64x768_1_1_2_2_0_0 : DotDims S32x4096x64 S32x4096x768 S32x64x768 where
  lhsContracting := [1]
  rhsContracting := [1]
  lhsNonContracting := [2]
  rhsNonContracting := [2]
  lhsBatch := [0]
  rhsBatch := [0]
  wf := dot_S32x4096x64_S32x4096x768_S32x64x768_1_1_2_2_0_0_wf

class Facts : Prop extends Facts₀ where

variable [Facts]
-- ==== Proof.Spec.lean ====
/-
  The function both programs compute, written once over the extended reals.

  For each batch entry b and each of the 64 projection rows k, the N = 4096 positions n get a score
      s n = ∑ c, x[b, n, c] · W[k, c]
  (the position's 768 features against row k of the projection). The scores are turned into weights by a
  softmax over the POSITIONS: with M the largest score,
      weight n = exp (s n − M),   attn n = weight n / ∑ n', weight n',
  and the result entry (b, k, c) is the attn-weighted sum of feature c over the positions,
      ∑ n, attn n · x[b, n, c].
  `pool s v` is that weighted sum for a family of scores `s` and a family of values `v`; `G` instantiates it.

  The maximum is taken as a fold of `max` from the float pattern of −∞ (the neutral element both programs start
  from); the pattern is never evaluated. The only law stated here is that taking the maximum with that starting
  value once more changes nothing — an upper bound of a fold is above its starting value.
-/
import Idealize.ShloMosaic.PureOps.Ideal
import Idealize.ShloMosaic.Lib.ValueIdx

noncomputable section

namespace Cert.SoftPool

open Idealize.ShloMosaic Idealize.ShloMosaic.ValueIdx

/-- The value of the f32 pattern of −∞: the starting value of both programs' maxima. -/
abbrev negInf : EReal := Ideal.ofBits .f32 0xFF800000#32

/-- The largest of 4096 scores (at least the starting value). -/
def rowMax (s : Fin 4096 → EReal) : EReal := (Finset.univ : Finset (Fin 4096)).fold max negInf s

/-- The unnormalised softmax weight of position `n`. -/
def weight (s : Fin 4096 → EReal) (n : Fin 4096) : EReal := Ideal.exp (s n - rowMax s)

/-- The sum of the weights: the softmax's denominator. -/
def total (s : Fin 4096 → EReal) : EReal := ∑ n : Fin 4096, weight s n

/-- The softmax-weighted sum of the values `v` under the scores `s`. -/
def pool (s v : Fin 4096 → EReal) : EReal := ∑ n : Fin 4096, Ideal.div (weight s n) (total s) * v n

/-- Score of position `n` of batch entry `b` against projection row `k`. -/
def score (x : (⟨3, ![32, 4096, 768]⟩ : Shape).Idx → EReal) (W : (⟨2, ![64, 768]⟩ : Shape).Idx → EReal)
    (b : Fin 32) (k : Fin 64) (n : Fin 4096) : EReal :=
  ∑ c : Fin 768, x (ix3 b n c) * W (ix2 k c)

/-- The pooled tokens: entry `(b, k, c)` is the softmax-over-positions weighted sum of feature `c`. -/
def G (x : (⟨3, ![32, 4096, 768]⟩ : Shape).Idx → EReal) (W : (⟨2, ![64, 768]⟩ : Shape).Idx → EReal) :
    (⟨3, ![32, 64, 768]⟩ : Shape).Idx → EReal :=
  fun i => pool (score x W (i 0) (i 1)) (fun n => x (ix3 (i 0) n (i 2)))

/-- A maximum folded from −∞ is at least −∞, so taking the maximum with −∞ again returns it. -/
theorem max_negInf_rowMax (s : Fin 4096 → EReal) : max negInf (rowMax s) = rowMax s :=
  max_eq_right ((Finset.le_fold_max negInf).mpr (Or.inl le_rfl))

end Cert.SoftPool

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.KernelPayload.lean ====
/-
  What one grid point of the kernel computes, read at an index.

  At a grid point the body holds the whole projection `w` (64 × 768) and ONE batch entry's slab `xb` (1 × 4096 × 768).
  It forms the 64 × 4096 matrix of scores w · slabᵀ, takes each row's maximum and the exponentials of the row less
  its maximum, divides each row by its sum, and multiplies the resulting 64 × 4096 matrix into the slab. The
  narrowing of operands to bf16 before the two products is the identity on extended reals. The stages are named
  below in the body's own order, so that the body's stored value IS the last of them, and each is read at explicit
  coordinates; the row statistics come back to the matrix through a column (the lemmas on column layouts).

  Read at (k, c) the stored block is the softmax-weighted sum `pool` of feature c under row k's scores. The kernel
  multiplies w[k, c'] · x[n, c'] where the specification writes x[n, c'] · w[k, c']: multiplication of extended
  reals commutes, and that is the only algebra used.
-/
import proofs.«141393_j82635170775492_2_alg».proof.Proof.Gen.KernelIdeal.Skeleton
import proofs.«141393_j82635170775492_2_alg».proof.Proof.Spec
import proofs.«141393_j82635170775492_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.SoftPool.Ker

open Cert.KernelIdeal Cert.KernelIdeal.Gen
open Idealize.ShloMosaic Idealize.ShloMosaic.ValueIdx Cert.SoftPool Cert.Lib.Column

/-- The scores' product: (64 × 768) against (4096 × 768), both contracted on their feature axis. -/
abbrev dotS : DotDims S64x768 S4096x768 S64x4096 := dot_S64x768_S4096x768_S64x4096_1_1_0_0_n_n
/-- The pooling product: (64 × 4096) against (4096 × 768), contracted on the positions. -/
abbrev dotT : DotDims S64x4096 S4096x768 S64x768 := dot_S64x4096_S4096x768_S64x768_1_0_0_1_n_n

variable (w : FVec Ideal S64x768 .f32) (xb : FVec Ideal S1x4096x768 .f32)

/-! ## The slab -/

/-- The batch entry's positions × features matrix (its leading unit axis dropped), as the products read it. -/
def slab : FVec Ideal S4096x768 .bf16 :=
  truncf .bf16 (shapeCast S4096x768 xb shapeCasts_S1x4096x768_S4096x768) bitsLt_bf16_f32

theorem slab_at (n : Fin 4096) (c : Fin 768) : slab xb (ix2 n c) = xb (ix3 (0 : Fin 1) n c) := by
  unfold slab
  exact shapeCast_1ab_ab_apply xb _ n c

/-! ## The scores -/

def scores : FVec Ideal S64x4096 .f32 :=
  matmul dot_S64x768_S4096x768_S64x4096_1_1_0_0_n_n none (truncf .bf16 w bitsLt_bf16_f32) (slab xb) (constant S64x4096 .f32 0x00000000#32)

theorem dotS_lhs0 (j : S64x4096.Idx) (q : dotS.contr.Idx) : (dotS.lhsIdx j q 0).val = (j 0).val := by
  unfold DotDims.lhsIdx
  rw [dif_neg (show ¬(0 : Fin S64x768.rank) ∈ dotS.lhsBatch by decide), dif_pos (show (0 : Fin S64x768.rank) ∈ dotS.lhsNonContracting by decide)]
  rfl

theorem dotS_rhs0 (j : S64x4096.Idx) (q : dotS.contr.Idx) : (dotS.rhsIdx j q 0).val = (j 1).val := by
  unfold DotDims.rhsIdx
  rw [dif_neg (show ¬(0 : Fin S4096x768.rank) ∈ dotS.rhsBatch by decide), dif_pos (show (0 : Fin S4096x768.rank) ∈ dotS.rhsNonContracting by decide)]
  rfl

/-- Row `k`'s score of position `n`: the sum over the 768 features. -/
theorem scores_at (k : Fin 64) (n : Fin 4096) :
    scores w xb (ix2 k n) = ∑ c : Fin 768, w (ix2 k c) * xb (ix3 (0 : Fin 1) n c) := by
  unfold scores
  refine (Ideal.matmul_constant_zero_apply dotS none _ _ (ix2 k n)).trans ?_
  rw [← Equiv.sum_comp (contrEquiv1 dotS 768 rfl rfl).symm]
  refine Finset.sum_congr rfl fun c _ => ?_
  have hk := contrEquiv1_symm_val dotS 768 rfl rfl c
  have el : dotS.lhsIdx (ix2 k n) ((contrEquiv1 dotS 768 rfl rfl).symm c) = ix2 k c := funext fun a => Fin.ext (by
    match a with
    | ⟨0, _⟩ => exact dotS_lhs0 _ _
    | ⟨1, _⟩ => exact (dotS.lhsIdx_val_of_single rfl _ _).trans hk)
  have er : dotS.rhsIdx (ix2 k n) ((contrEquiv1 dotS 768 rfl rfl).symm c) = ix2 n c := funext fun a => Fin.ext (by
    match a with
    | ⟨0, _⟩ => exact dotS_rhs0 _ _
    | ⟨1, _⟩ => exact (dotS.rhsIdx_val_of_single rfl _ _).trans hk)
  rw [el, er, slab_at]
  rfl

/-! ## The row maxima -/

def rowmax : FVec Ideal S64 .f32 :=
  multiReduction .maximumf [1] S64 (scores w xb) 0xFF800000#32 reduces_S64x4096_S64 (.inl rfl) rfl

/-- Position `n` inserted into row `k` on the reduced axis is `(k, n)`. -/
theorem lift_kn (k : Fin 64) (n : Fin 4096) : reduces_S64x4096_S64.lift (ix1 k) n = ix2 k n :=
  funext fun a => Fin.ext (by match a with | ⟨0, _⟩ => rfl | ⟨1, _⟩ => rfl)

theorem rowmax_at (k : Fin 64) : rowmax w xb (ix1 k) = rowMax (fun n => scores w xb (ix2 k n)) := by
  unfold rowmax
  refine (Ideal.multiReduction_maximumf_single (scores w xb) 0xFF800000#32 reduces_S64x4096_S64 _ _ (ix1 k)).trans ?_
  have e : (scores w xb ∘ reduces_S64x4096_S64.lift (ix1 k)) = fun n => scores w xb (ix2 k n) :=
    funext fun (n : Fin 4096) => congrArg (scores w xb) (lift_kn k n)
  rw [e]
  rfl

/-! ## The weights and their row sums -/

def wts : FVec Ideal S64x4096 .f32 :=
  exp (subf (scores w xb) (broadcastTo S64x4096 (shapeCast S64x1 (rowmax w xb) shapeCasts_S64_S64x1) broadcasts_S64x1_S64x4096))

theorem wts_at (k : Fin 64) (n : Fin 4096) :
    wts w xb (ix2 k n) = weight (fun n' => scores w xb (ix2 k n')) n := by
  unfold wts weight
  exact congrArg (fun m => Ideal.exp (scores w xb (ix2 k n) - m))
    ((broadcastTo_shapeCast_column_apply (rowmax w xb) shapeCasts_S64_S64x1 broadcasts_S64x1_S64x4096 k n).trans (rowmax_at w xb k))

def wsum : FVec Ideal S64 .f32 :=
  multiReduction .add [1] S64 (wts w xb) 0x00000000#32 reduces_S64x4096_S64 (.inl rfl) rfl

theorem wsum_at (k : Fin 64) : wsum w xb (ix1 k) = total (fun n => scores w xb (ix2 k n)) := by
  unfold wsum
  refine (Ideal.multiReduction_add_single (wts w xb) 0x00000000#32 reduces_S64x4096_S64 _ _ (ix1 k)).trans ?_
  unfold total
  exact Finset.sum_congr rfl fun (n : Fin 4096) _ => (congrArg (wts w xb) (lift_kn k n)).trans (wts_at w xb k n)

/-! ## The normalised weights -/

def attn : FVec Ideal S64x4096 .f32 :=
  divf (wts w xb) (broadcastTo S64x4096 (shapeCast S64x1 (wsum w xb) shapeCasts_S64_S64x1) broadcasts_S64x1_S64x4096)

theorem attn_at (k : Fin 64) (n : Fin 4096) :
    attn w xb (ix2 k n)
      = Ideal.div (weight (fun n' => scores w xb (ix2 k n')) n) (total (fun n' => scores w xb (ix2 k n'))) := by
  unfold attn
  exact congrArg₂ Ideal.div (wts_at w xb k n)
    ((broadcastTo_shapeCast_column_apply (wsum w xb) shapeCasts_S64_S64x1 broadcasts_S64x1_S64x4096 k n).trans (wsum_at w xb k))

/-! ## The pooled block -/

def tokens : FVec Ideal S64x768 .f32 :=
  matmul dot_S64x4096_S4096x768_S64x768_1_0_0_1_n_n none (truncf .bf16 (attn w xb) bitsLt_bf16_f32) (slab xb) (constant S64x768 .f32 0x00000000#32)

theorem dotT_lhs0 (j : S64x768.Idx) (q : dotT.contr.Idx) : (dotT.lhsIdx j q 0).val = (j 0).val := by
  unfold DotDims.lhsIdx
  rw [dif_neg (show ¬(0 : Fin S64x4096.rank) ∈ dotT.lhsBatch by decide), dif_pos (show (0 : Fin S64x4096.rank) ∈ dotT.lhsNonContracting by decide)]
  rfl

theorem dotT_rhs1 (j : S64x768.Idx) (q : dotT.contr.Idx) : (dotT.rhsIdx j q 1).val = (j 1).val := by
  unfold DotDims.rhsIdx
  rw [dif_neg (show ¬(1 : Fin S4096x768.rank) ∈ dotT.rhsBatch by decide), dif_pos (show (1 : Fin S4096x768.rank) ∈ dotT.rhsNonContracting by decide)]
  rfl

/-- Entry `(k, c)` of the pooled block: the sum over the 4096 positions. -/
theorem tokens_at (k : Fin 64) (c : Fin 768) :
    tokens w xb (ix2 k c) = ∑ n : Fin 4096, attn w xb (ix2 k n) * xb (ix3 (0 : Fin 1) n c) := by
  unfold tokens
  refine (Ideal.matmul_constant_zero_apply dotT none _ _ (ix2 k c)).trans ?_
  rw [← Equiv.sum_comp (contrEquiv1 dotT 4096 rfl rfl).symm]
  refine Finset.sum_congr rfl fun n _ => ?_
  have hk := contrEquiv1_symm_val dotT 4096 rfl rfl n
  have el : dotT.lhsIdx (ix2 k c) ((contrEquiv1 dotT 4096 rfl rfl).symm n) = ix2 k n := funext fun a => Fin.ext (by
    match a with
    | ⟨0, _⟩ => exact dotT_lhs0 _ _
    | ⟨1, _⟩ => exact (dotT.lhsIdx_val_of_single rfl _ _).trans hk)
  have er : dotT.rhsIdx (ix2 k c) ((contrEquiv1 dotT 4096 rfl rfl).symm n) = ix2 n c := funext fun a => Fin.ext (by
    match a with
    | ⟨0, _⟩ => exact (dotT.rhsIdx_val_of_single rfl _ _).trans hk
    | ⟨1, _⟩ => exact dotT_rhs1 _ _)
  rw [el, er, slab_at]
  rfl

/-! ## The body's stored value -/

/-- The value the body stores is the pooled block with a leading unit axis: the stages above are the body's own
    operations in its own order. -/
theorem pay_eq (w : Vec Ideal S64x768 .f32) (xb : Vec Ideal S1x4096x768 .f32) :
    k0_pay1 (F := Ideal) w xb = shapeCast S1x64x768 (tokens w xb) shapeCasts_S64x768_S1x64x768 := rfl

/-- Row `k`'s scores in the specification's order of factors. -/
theorem scores_comm (k : Fin 64) :
    (fun n => scores w xb (ix2 k n)) = fun n => ∑ c : Fin 768, xb (ix3 (0 : Fin 1) n c) * w (ix2 k c) :=
  funext fun n => (scores_at w xb k n).trans (Finset.sum_congr rfl fun _ _ => mul_comm _ _)

/-- THE BLOCK AT AN INDEX: entry `(·, k, c)` of the stored block is the softmax-weighted sum of feature `c` over the slab's
    positions, under row `k`'s scores. -/
theorem pay_at (w : Vec Ideal S64x768 .f32) (xb : Vec Ideal S1x4096x768 .f32) (u : Fin 1) (k : Fin 64) (c : Fin 768) :
    k0_pay1 (F := Ideal) w xb (ix3 u k c)
      = pool (fun n => ∑ c' : Fin 768, xb (ix3 (0 : Fin 1) n c') * w (ix2 k c')) (fun n => xb (ix3 (0 : Fin 1) n c)) := by
  rw [pay_eq]
  refine (shapeCast_ab_1ab_apply (tokens w xb) _ u k c).trans ?_
  rw [tokens_at, ← scores_comm w xb k]
  unfold pool
  exact Finset.sum_congr rfl fun n _ => by rw [attn_at]

end Cert.SoftPool.Ker

end
-- ==== Proof.KernelArray.lean ====
/-
  From the blocks to the array: after the kernel has run, its result array is the pooled tokens `G`.

  The grid has one point per batch entry. Point t holds the whole projection (block (0, 0) of the 64 × 768 array), slab t
  of the input (block (t, 0, 0), of extent 1 × 4096 × 768) and writes block (t, 0, 0) of the result (extent 1 × 64 × 768).
  An element (u, k, c) of a block at block index q sits in the array at q · extent + (u, k, c), axis by axis; here that
  is (t, k, c) for the result and (t, n, c') for the slab. So what point t writes at (·, k, c) — the softmax-weighted sum
  of feature c over slab t's positions under row k's scores — is `G` at (t, k, c): point t writes block t of `G`. The 32
  blocks tile the result array (index (b, k, c) lies in block b), so the array ends holding `G` everywhere.
-/
import proofs.«141393_j82635170775492_2_alg».proof.Proof.Gen.KernelIdeal.Value
import proofs.«141393_j82635170775492_2_alg».proof.Proof.KernelPayload

set_option maxRecDepth 16384

noncomputable section

namespace Cert.SoftPool.Arr

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.SoftPool Cert.SoftPool.Ker

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps, decided over the 32 grid points: the projection's block never moves, and the slab's and the
    result's block index along the batch axis is the point's number. -/
theorem block_index : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- ONE BLOCK AGAINST THE ARRAYS. If the block `w` agrees with the projection `Wt` entry for entry and the block `xb` is
    batch entry `b` of `X`, then the body's stored value at `y = (·, k, c)` is `G X Wt` at any array index `i` with
    coordinates `(b, k, c)`. -/
theorem block_eq (X : S32x4096x768.Idx → EReal) (Wt : S64x768.Idx → EReal)
    (w : Vec Ideal S64x768 .f32) (xb : Vec Ideal S1x4096x768 .f32) (b : Fin 32)
    (hw : ∀ (k : Fin 64) (c : Fin 768), w (ix2 k c) = Wt (ix2 k c))
    (hx : ∀ (n : Fin 4096) (c : Fin 768), xb (ix3 (0 : Fin 1) n c) = X (ix3 b n c))
    (y : S1x64x768.Idx) (i : S32x64x768.Idx)
    (h0 : (i 0).val = b.val) (h1 : (i 1).val = (y 1).val) (h2 : (i 2).val = (y 2).val) :
    k0_pay1 (F := Ideal) w xb y = G X Wt i := by
  obtain ⟨u, k, c, rfl⟩ : ∃ (u : Fin 1) (k : Fin 64) (c : Fin 768), y = ix3 u k c := ⟨y 0, y 1, y 2, eq_ix3 y⟩
  obtain ⟨b', k', c', rfl⟩ : ∃ (b' : Fin 32) (k' : Fin 64) (c' : Fin 768), i = ix3 b' k' c' := ⟨i 0, i 1, i 2, eq_ix3 i⟩
  obtain rfl : b' = b := Fin.ext h0
  obtain rfl : k' = k := Fin.ext h1
  obtain rfl : c' = c := Fin.ext h2
  rw [pay_at]
  unfold G score
  simp only [hw, hx]

/-- WHAT POINT `t` WRITES BACK is block `t` of `G` of the argument arrays. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero zero3]
  simp only [View.ld_unit_zero (S := S64x768) zero2, View.ld_unit_zero (S := S1x4096x768) zero3]
  obtain ⟨a0, a1, b0, b1, b2, o0, o1, o2⟩ := block_index t
  have ht : t.val < 32 := N_0 ▸ t.isLt
  funext y
  show k0_pay1 (F := Ideal) (iblk m c 0 t) (iblk m c 1 t) y
      = G (V m c main_arg0) (V m c main_arg1) (((cfg0.win 2).blk t).view.emb y)
  refine block_eq (V m c main_arg0) (V m c main_arg1) (iblk m c 0 t) (iblk m c 1 t) ⟨t.val, ht⟩ ?_ ?_ y _ ?_ ?_ ?_
  · intro k c'
    show V m c main_arg1 (((cfg0.win 0).blk t).view.emb (ix2 k c')) = V m c main_arg1 (ix2 k c')
    refine congrArg _ (funext fun a => Fin.ext ?_)
    match a with
    | ⟨0, _⟩ => show win0_0.index t (0 : Fin 2) * 64 + 1 * k.val = k.val; omega
    | ⟨1, _⟩ => show win0_0.index t (1 : Fin 2) * 768 + 1 * c'.val = c'.val; omega
  · intro n c'
    show V m c main_arg0 (((cfg0.win 1).blk t).view.emb (ix3 (0 : Fin 1) n c')) = V m c main_arg0 (ix3 (⟨t.val, ht⟩ : Fin 32) n c')
    refine congrArg _ (funext fun a => Fin.ext ?_)
    match a with
    | ⟨0, _⟩ => show win0_1.index t (0 : Fin 3) * 1 + 1 * 0 = t.val; omega
    | ⟨1, _⟩ => show win0_1.index t (1 : Fin 3) * 4096 + 1 * n.val = n.val; omega
    | ⟨2, _⟩ => show win0_1.index t (2 : Fin 3) * 768 + 1 * c'.val = c'.val; omega
  · show win0_2.index t (0 : Fin 3) * 1 + 1 * (y 0).val = t.val
    have hy : (y 0).val < 1 := (y 0).isLt
    omega
  · show win0_2.index t (1 : Fin 3) * 64 + 1 * (y 1).val = (y 1).val
    omega
  · show win0_2.index t (2 : Fin 3) * 768 + 1 * (y 2).val = (y 2).val
    omega

/-- An index of the result array is in point `t`'s block iff each coordinate is in the block's range on its axis. -/
theorem mem_block (t : Fin cfg0.N) (i : S32x64x768.Idx) :
    i ∈ ((cfg0.win 2).blk t).view.set ↔ ∀ a : Fin 3, win0_2.index t a * S1x64x768.size a ≤ (i a).val ∧ (i a).val < win0_2.index t a * S1x64x768.size a + S1x64x768.size a := by
  show i ∈ ((View.whole main_v0).slice (win0_2.rect t)).set ↔ _
  rw [View.set_slice_whole, Rect.mem_set_unit]
  exact Iff.rfl

/-- THE BLOCKS TILE THE RESULT: index `(b, k, c)` lies in the block of point `b`, which writes back. -/
theorem cover (i : S32x64x768.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 768 := (i 2).isLt
  obtain ⟨t, ht⟩ : ∃ t : Fin cfg0.N, t.val = (i 0).val := ⟨⟨(i 0).val, lt_of_lt_of_eq hi0 N_0.symm⟩, rfl⟩
  obtain ⟨-, -, -, -, -, o0, o1, o2⟩ := block_index t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 768 ≤ (i 2).val ∧ (i 2).val < win0_2.index t (2 : Fin 3) * 768 + 768; omega

/-- THE RESULT ARRAY after the run is the pooled tokens of the arguments as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- THE KERNEL'S RUN: every weakly fair execution terminates with the result array at the pooled tokens, the arguments
    unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.SoftPool.Arr

end
-- ==== Proof.RefIsSpec.lean ====
/-
  The reference computes the pooled tokens `G`.

  Its program is: scores v0[b, n, k] = ∑ c, x[b, n, c] · W[k, c] (one contraction); their maximum over the positions n,
  folded from −∞ and then once more compared with −∞; the exponentials of the scores less that maximum; their sum over
  n from 0; the quotient; and the contraction of the quotient with x over n. Stage by stage, at explicit coordinates,
  each value is the corresponding piece of the specification. The two places where the texts differ from it are the
  repeated comparison with −∞ (absorbed: the fold is already at least −∞) and the sum's starting value 0.
-/
import proofs.«141393_j82635170775492_2_alg».proof.Proof.Gen.ReferenceIdeal.Read
import proofs.«141393_j82635170775492_2_alg».proof.Proof.Spec
import Idealize.ShloMosaic.PureOps.Reduce

noncomputable section

namespace Cert.SoftPool.Ref

open Cert.ReferenceIdeal Cert.ReferenceIdeal.Gen Cert.ReferenceIdeal.Read
open Idealize.ShloMosaic Idealize.ShloMosaic.ValueIdx Cert.SoftPool

variable (x0 : (⟨S32x4096x768, .f32⟩ : BufTy).Contents (Elt Ideal)) (x1 : (⟨S64x768, .f32⟩ : BufTy).Contents (Elt Ideal))

/-! ## Scores -/

theorem lidx_v0 (b : Fin 32) (n : Fin 4096) (k : Fin 64) (c : Fin 768) : lidx_main_v0 (ix3 b n k) c = ix3 b n c :=
  funext fun a => Fin.ext (by match a with | ⟨0, _⟩ => rfl | ⟨1, _⟩ => rfl | ⟨2, _⟩ => rfl)

theorem ridx_v0 (b : Fin 32) (n : Fin 4096) (k : Fin 64) (c : Fin 768) : ridx_main_v0 (ix3 b n k) c = ix2 k c :=
  funext fun a => Fin.ext (by match a with | ⟨0, _⟩ => rfl | ⟨1, _⟩ => rfl)

/-- The first contraction at `(b, n, k)` is the score of position `n` against row `k`. -/
theorem v0_at (b : Fin 32) (n : Fin 4096) (k : Fin 64) :
    val_main_v0 (F := Ideal) x0 x1 (ix3 b n k) = score x0 x1 b k n := by
  rw [val_main_v0_apply]
  unfold score
  exact Finset.sum_congr rfl fun c _ => by rw [lidx_v0, ridx_v0]

/-! ## The maximum over the positions -/

/-- The positions axis (axis 1 of [32, 4096, 64]) is the one reduced. -/
theorem red_n : S32x4096x64.Reduces [1] S32x64 := by decide

/-- Position `n` inserted into `(b, k)` on the reduced axis is `(b, n, k)`. -/
theorem lift_n (b : Fin 32) (k : Fin 64) (n : Fin 4096) : red_n.lift (ix2 b k) n = ix3 b n k :=
  funext fun a => Fin.ext (by match a with | ⟨0, _⟩ => rfl | ⟨1, _⟩ => rfl | ⟨2, _⟩ => rfl)

/-- The reduce with `maximum` over the positions, from −∞, is the largest score. -/
theorem v1_at (b : Fin 32) (k : Fin 64) :
    val_main_v1 (F := Ideal) x0 x1 (ix2 b k) = rowMax (score x0 x1 b k) := by
  unfold val_main_v1
  refine (Host.reduce_eq_fold_single _ _ _ _ red_n _ (ix2 b k)).trans ?_
  have e : (val_main_v0 (F := Ideal) x0 x1 ∘ red_n.lift (ix2 b k)) = score x0 x1 b k :=
    funext fun (n : Fin 4096) => (congrArg (val_main_v0 (F := Ideal) x0 x1) (lift_n b k n)).trans (v0_at x0 x1 b n k)
  rw [e]
  rfl

/-- Compared with −∞ once more, it is unchanged. -/
theorem v3_at (b : Fin 32) (k : Fin 64) :
    val_main_v3 (F := Ideal) x0 x1 (ix2 b k) = rowMax (score x0 x1 b k) := by
  rw [val_main_v3_apply, v1_at, val_main_v2_apply, val_main_cst_0_apply]
  exact max_negInf_rowMax _

theorem idx_v4_v5 (b : Fin 32) (n : Fin 4096) (k : Fin 64) : idx_main_v4 (idx_main_v5 (ix3 b n k)) = ix2 b k :=
  funext fun a => Fin.ext (by match a with | ⟨0, _⟩ => rfl | ⟨1, _⟩ => rfl)

/-- Broadcast back over the positions. -/
theorem v5_at (b : Fin 32) (n : Fin 4096) (k : Fin 64) :
    val_main_v5 (F := Ideal) x0 x1 (ix3 b n k) = rowMax (score x0 x1 b k) := by
  rw [val_main_v5_apply, val_main_v4_apply, idx_v4_v5, v3_at]

/-! ## The weights, their sum, the quotient -/

theorem v7_at (b : Fin 32) (n : Fin 4096) (k : Fin 64) :
    val_main_v7 (F := Ideal) x0 x1 (ix3 b n k) = weight (score x0 x1 b k) n := by
  rw [val_main_v7_apply, val_main_v6_apply, v0_at, v5_at]
  rfl

theorem idx_v8 (b : Fin 32) (k : Fin 64) (n : Fin 4096) : idx_main_v8 (ix2 b k) n = ix3 b n k :=
  funext fun a => Fin.ext (by match a with | ⟨0, _⟩ => rfl | ⟨1, _⟩ => rfl | ⟨2, _⟩ => rfl)

/-- The sum over the positions starts from the pattern of 0, which adds nothing. -/
theorem v8_at (b : Fin 32) (k : Fin 64) :
    val_main_v8 (F := Ideal) x0 x1 (ix2 b k) = total (score x0 x1 b k) := by
  rw [val_main_v8_apply]
  simp only [idx_v8, v7_at]
  show Ideal.ofBits .f32 0x00000000#32 + _ = _
  rw [Ideal.ofBits_zero_f32, zero_add]
  rfl

theorem idx_v9_v10 (b : Fin 32) (n : Fin 4096) (k : Fin 64) : idx_main_v9 (idx_main_v10 (ix3 b n k)) = ix2 b k :=
  funext fun a => Fin.ext (by match a with | ⟨0, _⟩ => rfl | ⟨1, _⟩ => rfl)

theorem v10_at (b : Fin 32) (n : Fin 4096) (k : Fin 64) :
    val_main_v10 (F := Ideal) x0 x1 (ix3 b n k) = total (score x0 x1 b k) := by
  rw [val_main_v10_apply, val_main_v9_apply, idx_v9_v10, v8_at]

theorem v11_at (b : Fin 32) (n : Fin 4096) (k : Fin 64) :
    val_main_v11 (F := Ideal) x0 x1 (ix3 b n k)
      = Ideal.div (weight (score x0 x1 b k) n) (total (score x0 x1 b k)) := by
  rw [val_main_v11_apply, v7_at, v10_at]
  rfl

/-! ## The weighted sum -/

theorem lidx_v12 (b : Fin 32) (k : Fin 64) (c : Fin 768) (n : Fin 4096) : lidx_main_v12 (ix3 b k c) n = ix3 b n k :=
  funext fun a => Fin.ext (by match a with | ⟨0, _⟩ => rfl | ⟨1, _⟩ => rfl | ⟨2, _⟩ => rfl)

theorem ridx_v12 (b : Fin 32) (k : Fin 64) (c : Fin 768) (n : Fin 4096) : ridx_main_v12 (ix3 b k c) n = ix3 b n c :=
  funext fun a => Fin.ext (by match a with | ⟨0, _⟩ => rfl | ⟨1, _⟩ => rfl | ⟨2, _⟩ => rfl)

/-- The reference's result is the pooled tokens. -/
theorem result_eq : val_main_v12 (F := Ideal) x0 x1 = G x0 x1 := by
  funext i
  obtain ⟨b, k, c, rfl⟩ : ∃ (b : Fin 32) (k : Fin 64) (c : Fin 768), i = ix3 b k c := ⟨i 0, i 1, i 2, eq_ix3 i⟩
  rw [val_main_v12_apply]
  simp only [lidx_v12, ridx_v12, v11_at]
  rfl

end Cert.SoftPool.Ref

end
-- ==== Proof.lean ====
/-
  The kernel pools 4096 positions into 64 tokens per batch entry: scores of every position against the 64 rows of a
  projection, a softmax of the scores over the POSITIONS, and the softmax-weighted sum of the positions' features. The
  reference writes the same thing as two einsums around `jax.nn.softmax(axis=1)`.

  Read over the extended reals both programs are one function `G` (Proof/Spec.lean):
      G x W (b, k, c) = ∑ n, (exp (s n − M) / ∑ n', exp (s n' − M)) · x[b, n, c],   s n = ∑ c', x[b, n, c'] · W[k, c'],
  M the maximum of the scores folded from −∞. The kernel computes it one batch entry per grid point (Proof/KernelPayload.lean:
  the body's stored block at an index; Proof/KernelArray.lean: the 32 blocks tile the result array), the reference in one
  pass over the whole batch (Proof/RefIsSpec.lean). The two texts differ only in the order of the factors inside the
  scores (multiplication commutes), in a second comparison of the maximum with −∞ (absorbed) and in the sum's starting
  value 0; the narrowing of matmul operands to bf16 is the identity on extended reals. No law used needs the inputs to
  be finite, so the precondition is never opened.

  The three frames are the generated ones (the reference's is its generated run with the result forgotten); the
  idealization rewrote no operation, so `preserves` is `True`.
-/
import proofs.«141393_j82635170775492_2_alg».proof.Defs
import proofs.«141393_j82635170775492_2_alg».proof.Proof.Gen.Kernel
import proofs.«141393_j82635170775492_2_alg».proof.Proof.Gen.Kernel.Skeleton
import proofs.«141393_j82635170775492_2_alg».proof.Proof.Gen.Kernel.Launch
import proofs.«141393_j82635170775492_2_alg».proof.Proof.Gen.Kernel.Points
import proofs.«141393_j82635170775492_2_alg».proof.Proof.Gen.Kernel.Frame
import proofs.«141393_j82635170775492_2_alg».proof.Proof.Gen.KernelIdeal
import proofs.«141393_j82635170775492_2_alg».proof.Proof.Gen.KernelIdeal.Skeleton
import proofs.«141393_j82635170775492_2_alg».proof.Proof.Gen.KernelIdeal.Launch
import proofs.«141393_j82635170775492_2_alg».proof.Proof.Gen.KernelIdeal.Points
import proofs.«141393_j82635170775492_2_alg».proof.Proof.Gen.KernelIdeal.Frame
import proofs.«141393_j82635170775492_2_alg».proof.Proof.Gen.ReferenceIdeal
import proofs.«141393_j82635170775492_2_alg».proof.Proof.Gen.Pre_finite_inputs
import proofs.«141393_j82635170775492_2_alg».proof.Proof.Gen.KernelIdeal.Value
import proofs.«141393_j82635170775492_2_alg».proof.Proof.Gen.ReferenceIdeal.Run
import proofs.«141393_j82635170775492_2_alg».proof.Proof.Gen.ReferenceIdeal.Read
import proofs.«141393_j82635170775492_2_alg».proof.Proof.KernelArray
import proofs.«141393_j82635170775492_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the pooled tokens `G` of the arguments: the kernel
    block by block, the reference in one pass. -/
theorem algebraic : Cert.algebraic_KernelIdeal_ReferenceIdeal := by
  intro m ρ m' ρ' _ hagree
  refine ⟨_, Cert.SoftPool.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.SoftPool.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
